-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S32768 : Shape := ⟨1, ![32768]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S32768 : S_.BroadcastsInDim S32768 (![] : Fin 0 → Fin S32768.rank)
  reducesTo_S32768_S_d0 : S32768.ReducesTo [0] S_

variable [Facts]

def fn {F : FTy → Type} [FloatOps F] (main_arg0 : FVec F S32768x1024 .f32) (main_arg1 : FVec F S32768 .f32) (main_arg2 : IVec S32768 32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S32768 .f32 := Host.absf main_arg1
  let main_cst_0 : FVec F S_ .f32 := constant S_ .f32 0x7F800000#32
  let main_v5 : FVec F S32768 .f32 := broadcastInDim S32768 ![] bcast_S_S32768 main_cst_0
  let main_v6 : IVec S32768 1 := cmpf .olt main_v4 main_v5
  let main_c_1 : IVec S_ 1 := constantI S_ 1 1#1
  let main_v7 : IVec S_ 1 := (fun x v => Host.reduce IntOp.andi x v reducesTo_S32768_S_d0 h_S_) main_v6 main_c_1
  let main_v8 : IVec S_ 1 := andi main_v3 main_v7
  main_v8
-- ==== Kernel.lean ====
abbrev S32768x1024 : Shape := ⟨2, ![32768, 1024]⟩
abbrev S32768 : Shape := ⟨1, ![32768]⟩
abbrev S_ : Shape := ⟨0, ![]⟩
abbrev S32768x1 : Shape := ⟨2, ![32768, 1]⟩
abbrev S1024x1024 : Shape := ⟨2, ![1024, 1024]⟩

abbrev nBuf : Space → Nat
  | .hbm => 16
  | .vmem => 4
  | .smem => 0
  | _ => 0

abbrev bufTy : (tb : Table) → Fin (tcTables nBuf tb) → BufTy
  | .hbm, ⟨0, _⟩ => ⟨S32768x1024, .f32⟩
  | .hbm, ⟨1, _⟩ => ⟨S32768, .f32⟩
  | .hbm, ⟨2, _⟩ => ⟨S32768, .i32⟩
  | .hbm, ⟨3, _⟩ => ⟨S_, .f32⟩
  | .hbm, ⟨4, _⟩ => ⟨S32768, .f32⟩
  | .hbm, ⟨5, _⟩ => ⟨S32768, .i1⟩
  | .hbm, ⟨6, _⟩ => ⟨S_, .i32⟩
  | .hbm, ⟨7, _⟩ => ⟨S32768, .i32⟩
  | .hbm, ⟨8, _⟩ => ⟨S32768, .i32⟩
  | .hbm, ⟨9, _⟩ => ⟨S_, .i32⟩
  | .hbm, ⟨10, _⟩ => ⟨S_, .i32⟩
  | .hbm, ⟨11, _⟩ => ⟨S32768, .i32⟩
  | .hbm, ⟨12, _⟩ => ⟨S32768, .i32⟩
  | .hbm, ⟨13, _⟩ => ⟨S32768, .f32⟩
  | .hbm, ⟨14, _⟩ => ⟨S32768x1, .f32⟩
  | .hbm, ⟨15, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  bcast_S_S32768 : S_.BroadcastsInDim S32768 (![] : Fin 0 → Fin S32768.rank)
  shapeCasts_S32768_S32768x1 : S32768.ShapeCasts S32768x1
  inb_S1024x1024_S1024x1024_0_0 : ∀ a, (![0, 0] : Fin 2 → Nat) a + S1024x1024.size a ≤ S1024x1024.size a
  h_S1024x1024 : 0 < S1024x1024.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S32768x1024.size a
  hwx0_0 : ∀ i : grid0.Coords, EltTy.bits .f32 = 32 ∨ (Rect.block (s := S32768x1024) S1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S32768x1024.size a
  hwx0_1 : ∀ i : grid0.Coords, EltTy.bits .f32 = 32 ∨ (Rect.block (s := S32768x1024) S1024x1024.size (cc0_transform_1 i) (hinb0_1 i)).WholeWords (EltTy.packing .f32)

variable [Facts₀]

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S1024x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x1024 : Shape := ⟨2, ![32768, 1024]⟩
abbrev S32768 : Shape := ⟨1, ![32768]⟩
abbrev S_ : Shape := ⟨0, ![]⟩
abbrev S1024 : Shape := ⟨1, ![1024]⟩
abbrev S1x1024 : Shape := ⟨2, ![1, 1024]⟩
abbrev S32768x1 : Shape := ⟨2, ![32768, 1]⟩

abbrev nBuf : Space → Nat
  | .hbm => 19
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768, .f32⟩
  | .hbm, ⟨2, _⟩ => ⟨S32768, .i32⟩
  | .hbm, ⟨3, _⟩ => ⟨S_, .i32⟩
  | .hbm, ⟨4, _⟩ => ⟨S32768, .i32⟩
  | .hbm, ⟨5, _⟩ => ⟨S32768, .i32⟩
  | .hbm, ⟨6, _⟩ => ⟨S_, .f32⟩
  | .hbm, ⟨7, _⟩ => ⟨S32768, .f32⟩
  | .hbm, ⟨8, _⟩ => ⟨S32768, .i1⟩
  | .hbm, ⟨9, _⟩ => ⟨S1024, .i32⟩
  | .hbm, ⟨10, _⟩ => ⟨S1x1024, .i32⟩
  | .hbm, ⟨11, _⟩ => ⟨S32768x1, .i32⟩
  | .hbm, ⟨12, _⟩ => ⟨S32768x1024, .i32⟩
  | .hbm, ⟨13, _⟩ => ⟨S32768x1024, .i32⟩
  | .hbm, ⟨14, _⟩ => ⟨S32768x1024, .i1⟩
  | .hbm, ⟨15, _⟩ => ⟨S32768x1, .i1⟩
  | .hbm, ⟨16, _⟩ => ⟨S32768x1024, .i1⟩
  | .hbm, ⟨17, _⟩ => ⟨S32768x1024, .i1⟩
  | .hbm, ⟨18, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  bcast_S_S32768 : S_.BroadcastsInDim S32768 (![] : Fin 0 → Fin S32768.rank)
  bcast_S1024_S1x1024_1 : S1024.BroadcastsInDim S1x1024 (![1] : Fin 1 → Fin S1x1024.rank)
  bcast_S32768_S32768x1_0 : S32768.BroadcastsInDim S32768x1 (![0] : Fin 1 → Fin S32768x1.rank)
  bcast_S1x1024_S32768x1024_0_1 : S1x1024.BroadcastsInDim S32768x1024 (![0, 1] : Fin 2 → Fin S32768x1024.rank)
  bcast_S32768x1_S32768x1024_0_1 : S32768x1.BroadcastsInDim S32768x1024 (![0, 1] : Fin 2 → Fin S32768x1024.rank)

variable [Facts₀]

class Facts : Prop extends Facts₀ where

variable [Facts]
-- ==== Proof.LibSelectSame.lean ====
/-
  A selection between two copies of ONE value is that value, whatever the condition: both branches of the choice
  are the same. Lane by lane, a vector selection `select c a a` is therefore the array `a` itself, for EVERY condition
  vector `c` — nothing about `c` (how it was computed, from which inputs) is used.
-/
import Idealize.ShloMosaic.PureOps

namespace Cert.Lib.SelectSame

open Idealize.ShloMosaic

/-- On one lane: choosing between `a` and `a` gives `a`, for either value of the condition bit. -/
theorem scalar_select_same {α : Type} (c : BitVec 1) (a : α) : Scalar.select c a a = a := by
  unfold Scalar.select
  exact ite_self a

/-- Lane by lane: selecting between an array and itself gives that array, for every condition vector. -/
theorem select_same {s : Shape} {α : Type} (c : IVec s 1) (a : s.Idx → α) : select c a a = a :=
  funext fun i => scalar_select_same (c i) (a i)

end Cert.Lib.SelectSame
-- ==== Proof.CopyValue.lean ====
/-
  The kernel's result array, read off its run.

  The grid has 32 points. At point `t` the input window brings rows `1024·t … 1024·t + 1023` (all 1024 columns) of the
  argument array `x` into a buffer; the body loads that whole buffer and stores it whole into the output window's
  buffer; the output window writes that buffer back to rows `1024·t … 1024·t + 1023` of the result array. Both
  windows use one index map, `t ↦ (t, 0)`, so what point `t` writes back is exactly block `t` of `x`
  (`written_back`). The 32 row blocks tile the 32768 rows — row `r` lies in block `r / 1024`
  (`every_index_copied`) — hence after the run the result array is `x`, index by index (`result_is_input`, `run`).
  No arithmetic happens anywhere, so nothing here depends on which float instance the program is read at, nor on the
  inputs being finite.
-/
import proofs.«130748_j38903813767349_2_alg».proof.Proof.Gen.KernelIdeal.Value

noncomputable section

namespace Cert.KernelIdeal.CopyValue

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## One grid point: the block written back is the block brought in -/

/-- The body's one load and its one store both start at the buffer's origin (and span the whole buffer). -/
theorem origin : (![0, 0] : Fin 2 → Nat) = fun _ => 0 := funext fun a => by fin_cases a <;> rfl

/-- Over the 32 grid points: the input window's and the output window's block indices agree on both axes. -/
theorem same_block : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- WHAT POINT `t` WRITES BACK is block `t` of the argument array `x` as the region finds it: the body stores the
    loaded input block unchanged, and the input block at `t` sits at the same rows and columns as the output block. -/
theorem written_back (c : Dev nD) (t : Fin cfg0.N) :
    (dats m 0 c).flushed 1 t = ((cfg0.win 1).blk t).view.read (Elt F) (V m c main_arg0) := by
  show (cfg0.win 1).cut (grid0.coords t) ((dats m 0 c).after 1 t) = _
  rw [after0_1]
  unfold out0_1
  rw [View.canon_unit_zero origin]
  simp only [View.ld_unit_zero (S := S1024x1024) origin]
  obtain ⟨e0, e1⟩ := same_block t
  funext j
  show V m c main_arg0 (((cfg0.win 0).blk t).view.emb j) = V m c main_arg0 (((cfg0.win 1).blk t).view.emb j)
  have h : ((cfg0.win 0).blk t).view.emb j = ((cfg0.win 1).blk t).view.emb j := by
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 1024 + 1 * (j 1).val = win0_1.index t (1 : Fin 2) * 1024 + 1 * (j 1).val; omega
  rw [h]

/-! ## All grid points: the blocks tile the array -/

/-- An index of the result array is in point `t`'s block iff each coordinate is in the block's range on its axis. -/
theorem mem_block (t : Fin cfg0.N) (i : S32768x1024.Idx) :
    i ∈ ((cfg0.win 1).blk t).view.set ↔ ∀ a : Fin 2, win0_1.index t a * S1024x1024.size a ≤ (i a).val ∧ (i a).val < win0_1.index t a * S1024x1024.size a + S1024x1024.size a := by
  show i ∈ ((View.whole main_v7).slice (win0_1.rect t)).set ↔ _
  rw [View.set_slice_whole, Rect.mem_set_unit]
  exact Iff.rfl

/-- Each of the 32 row blocks (with the one column block) is some grid point's. -/
theorem point_of_row_block : ∀ q : Fin 32, ∃ t : Fin cfg0.N, win0_1.index t = ![q.val, 0] :=
  (by decide +kernel : ∀ q : Fin 32, ∃ t : Fin grid0.N, win0_1.index t = ![q.val, 0])

/-- EVERY index `(r, k)` of the result array is written back by some point: the one whose row block is `r / 1024`. -/
theorem every_index_copied (i : S32768x1024.Idx) :
    ∃ t : Fin cfg0.N, (cfg0.win 1).flush t = true ∧ i ∈ ((cfg0.win 1).blk t).view.set := by
  have hi0 : (i 0).val < 32768 := (i 0).isLt
  have hi1 : (i 1).val < 1024 := (i 1).isLt
  obtain ⟨t, ht⟩ := point_of_row_block ⟨(i 0).val / 1024, by omega⟩
  have q0 : win0_1.index t (0 : Fin 2) = (i 0).val / 1024 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 1024 ≤ (i 0).val ∧ (i 0).val < win0_1.index t (0 : Fin 2) * 1024 + 1024; omega
  | ⟨1, _⟩ => show win0_1.index t (1 : Fin 2) * 1024 ≤ (i 1).val ∧ (i 1).val < win0_1.index t (1 : Fin 2) * 1024 + 1024; omega

/-- THE RESULT ARRAY after the run is the argument array `x` as launched: every point writes back its block of `x`,
    the blocks cover every index, and no host operation before the region writes `x`. -/
theorem result_is_input (c : Dev nD) : (dats m 0 c).arrAt 1 cfg0.N = m ((c : Thread nD τ).loc main_arg0) :=
  ((dats m 0 c).arrAt_eq_of_cover 1 (V m c main_arg0) (fun t _ => written_back m c t) every_index_copied).trans
    (V_main_arg0 m c)

/-! ## The run, read -/

/-- Every weakly fair execution of the kernel program terminates with the result array holding `x`, the arguments
    unchanged. -/
theorem run : θ_run defs (onTc (τ := τ) (main (F := F))) ⟨m, fun _ => 0, ρ⟩ fun r => ∀ c : Dev nD,
      r.2.mem ((c : Thread nD τ).loc main_v7) = m ((c : Thread nD τ).loc main_arg0)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_is_input m c), (h c).2⟩)
    (Value.run_blocks m ρ)

end Cert.KernelIdeal.CopyValue

end
-- ==== Proof.lean ====
/-
  The kernel copies its first argument `x` (f32[32768, 1024]) to its result, 1024 rows at a time over a grid of 32
  points; the two side inputs only feed host operations whose results the kernel's region never reads. The reference
  computes a mask from the side inputs and returns `select mask x x`. Read at the extended reals (indeed at any
  instance) both results are `x`, index by index:
  * the kernel's, because each grid point writes back exactly the block of `x` it was given, and the 32 blocks tile
    the array (Proof/CopyValue.lean, over the generated frame run and its blockwise value leg);
  * the reference's, because a selection between `x` and `x` is `x` whatever the mask holds
    (Proof/LibSelectSame.lean, applied to the generated run of the reference).
  No algebraic law of the extended reals is used — there is no arithmetic on `x` on either side — so the finiteness
  precondition is never opened. The three frame claims are the generated frame runs (the reference has no kernel: its
  frame is its generated run with the result dropped). The idealization rewrote no operation of the kernel, so the
  `preserves` claim states nothing (`True`).
-/
import proofs.«130748_j38903813767349_2_alg».proof.Defs
import proofs.«130748_j38903813767349_2_alg».proof.Proof.Gen.Kernel
import proofs.«130748_j38903813767349_2_alg».proof.Proof.Gen.Kernel.Frame
import proofs.«130748_j38903813767349_2_alg».proof.Proof.Gen.KernelIdeal
import proofs.«130748_j38903813767349_2_alg».proof.Proof.Gen.KernelIdeal.Frame
import proofs.«130748_j38903813767349_2_alg».proof.Proof.Gen.KernelIdeal.Value
import proofs.«130748_j38903813767349_2_alg».proof.Proof.Gen.ReferenceIdeal
import proofs.«130748_j38903813767349_2_alg».proof.Proof.Gen.ReferenceIdeal.Run
import proofs.«130748_j38903813767349_2_alg».proof.Proof.Gen.Pre_finite_inputs
import proofs.«130748_j38903813767349_2_alg».proof.Proof.LibSelectSame
import proofs.«130748_j38903813767349_2_alg».proof.Proof.CopyValue
import Idealize.ShloMosaic.Adequacy
import Idealize.ShloMosaic.Init

noncomputable section

namespace Cert.Proof

open Idealize.ShloMosaic Idealize.ShloMosaic.TcCoe Idealize.SL.Sem

/-- The kernel as printed, at the word level: it runs and leaves its arguments unchanged (the generated frame). -/
theorem frame_kernel : Cert.frame_Kernel := fun m ρ _ => Cert.Kernel.Gen.frame m ρ

/-- The same of the idealized kernel, at the extended reals. -/
theorem frame_kernel_ideal : Cert.frame_KernelIdeal := fun m ρ _ => Cert.KernelIdeal.Gen.frame m ρ

/-- The reference is a straight line of host operations: its generated run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading: there is nothing to preserve. -/
theorem preserves : Cert.preserves_Kernel_KernelIdeal := trivial

/-- From memories that agree on the arguments, both programs end with the result array holding `x`: the kernel by
    copying it block by block, the reference by selecting between `x` and `x`. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    Cert.KernelIdeal.CopyValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1]
  exact Cert.Lib.SelectSame.select_same _ _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
